-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S64x1024 : Shape := ⟨2, ![64, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1024x64 : Shape := ⟨2, ![1024, 64]⟩
abbrev S64 : Shape := ⟨1, ![64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64x1024 .f32) (main_arg8 : FVec F S1024 .f32) (main_arg9 : FVec F S1024x64 .f32) (main_arg10 : FVec F S64 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x64 .f32 := Host.absf main_arg9
  let main_cst_16 : FVec F S_ .f32 := constant S_ .f32 0x7F800000#32
  let main_v45 : FVec F S1024x64 .f32 := broadcastInDim S1024x64 ![] bcast_S_S1024x64 main_cst_16
  let main_v46 : IVec S1024x64 1 := cmpf .olt main_v44 main_v45
  let main_c_17 : IVec S_ 1 := constantI S_ 1 1#1
  let main_v47 : IVec S_ 1 := (fun x v => Host.reduce IntOp.andi x v reducesTo_S1024x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S1024 .f32) (main_arg5 : FVec F S1024x1 .f32) (main_arg6 : FVec F S1 .f32) (main_arg7 : FVec F S64x1024 .f32) (main_arg8 : FVec F S1024 .f32) (main_arg9 : FVec F S1024x64 .f32) (main_arg10 : FVec F S64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x64 .f32) (main_arg1 : FVec F S64x1024 .f32) (main_arg2 : FVec F S1024 .f32) (main_arg3 : FVec F S1024x1024 .f32) (main_arg4 : FVec F S1024 .f32) (main_arg5 : FVec F S1024x1 .f32) (main_arg6 : FVec F S1 .f32) (main_arg7 : FVec F S64x1024 .f32) (main_arg8 : FVec F S1024 .f32) (main_arg9 : FVec F S1024x64 .f32) (main_arg10 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S32768x64 : Shape := ⟨2, ![32768, 64]⟩
abbrev S64x1024 : Shape := ⟨2, ![64, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1024x64 : Shape := ⟨2, ![1024, 64]⟩
abbrev S64 : Shape := ⟨1, ![64]⟩
abbrev S64x2048 : Shape := ⟨2, ![64, 2048]⟩
abbrev S2048 : Shape := ⟨1, ![2048]⟩
abbrev S1x2048 : Shape := ⟨2, ![1, 2048]⟩
abbrev S1x1024 : Shape := ⟨2, ![1, 1024]⟩
abbrev S1024x32 : Shape := ⟨2, ![1024, 32]⟩
abbrev S2048x64 : Shape := ⟨2, ![2048, 64]⟩
abbrev S1x64 : Shape := ⟨2, ![1, 64]⟩
abbrev S512x64 : Shape := ⟨2, ![512, 64]⟩
abbrev S512x2048 : Shape := ⟨2, ![512, 2048]⟩
abbrev S512x1024 : Shape := ⟨2, ![512, 1024]⟩

abbrev nBuf : Space → Nat
  | .hbm => 29
  | .vmem => 12
  | .smem => 0
  | _ => 0

abbrev bufTy : (tb : Table) → Fin (tcTables nBuf tb) → BufTy
  | .hbm, ⟨0, _⟩ => ⟨S32768x64, .f32⟩
  | .hbm, ⟨1, _⟩ => ⟨S64x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64, .f32⟩
  | .hbm, ⟨11, _⟩ => ⟨S64x2048, .f32⟩
  | .hbm, ⟨12, _⟩ => ⟨S64x2048, .bf16⟩
  | .hbm, ⟨13, _⟩ => ⟨S2048, .f32⟩
  | .hbm, ⟨14, _⟩ => ⟨S1x2048, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x64, .f32⟩
  | .hbm, ⟨21, _⟩ => ⟨S1024x32, .f32⟩
  | .hbm, ⟨22, _⟩ => ⟨S1024x32, .f32⟩
  | .hbm, ⟨23, _⟩ => ⟨S1024x32, .f32⟩
  | .hbm, ⟨24, _⟩ => ⟨S1024x64, .f32⟩
  | .hbm, ⟨25, _⟩ => ⟨S2048x64, .f32⟩
  | .hbm, ⟨26, _⟩ => ⟨S2048x64, .bf16⟩
  | .hbm, ⟨27, _⟩ => ⟨S1x64, .f32⟩
  | .hbm, ⟨28, _⟩ => ⟨S32768x64, .f32⟩
  | .local _ .vmem, ⟨0, _⟩ => ⟨S512x64, .f32⟩
  | .local _ .vmem, ⟨1, _⟩ => ⟨S512x64, .f32⟩
  | .local _ .vmem, ⟨2, _⟩ => ⟨S64x2048, .bf16⟩
  | .local _ .vmem, ⟨3, _⟩ => ⟨S1x2048, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S2048x64, .bf16⟩
  | .local _ .vmem, ⟨9, _⟩ => ⟨S1x64, .f32⟩
  | .local _ .vmem, ⟨10, _⟩ => ⟨S512x64, .f32⟩
  | .local _ .vmem, ⟨11, _⟩ => ⟨S512x64, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S64x1024_S64x1024_S64x2048_d1 : Shape.Concatenates [S64x1024, S64x1024] S64x2048 1
  bitsLt_bf16_f32 : FTy.bits .bf16 < FTy.bits .f32
  concatenates_S1024_S1024_S2048_d0 : Shape.Concatenates [S1024, S1024] S2048 0
  shapeCasts_S2048_S1x2048 : S2048.ShapeCasts S1x2048
  transposes_S1024x1024_S1024x1024_1_0 : S1024x1024.Transposes [1, 0] S1024x1024
  shapeCasts_S1024_S1x1024 : S1024.ShapeCasts S1x1024
  transposes_S1024x1_S1x1024_1_0 : S1024x1.Transposes [1, 0] S1x1024
  transposes_S64x1024_S1024x64_1_0 : S64x1024.Transposes [1, 0] S1024x64
  slices_S1024x64_S1024x32_0_32 : S1024x64.Slices ![0, 32] S1024x32
  slices_S1024x64_S1024x32_0_0 : S1024x64.Slices ![0, 0] S1024x32
  concatenates_S1024x32_S1024x32_S1024x64_d1 : Shape.Concatenates [S1024x32, S1024x32] S1024x64 1
  concatenates_S1024x64_S1024x64_S2048x64_d0 : Shape.Concatenates [S1024x64, S1024x64] S2048x64 0
  shapeCasts_S64_S1x64 : S64.ShapeCasts S1x64
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  concatenates_S512x1024_S512x1024_S512x2048_d1 : Shape.Concatenates [S512x1024, S512x1024] S512x2048 1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  dot_S512x64_S64x2048_S512x2048_1_0_0_1_n_n_wf : DotDims.WF S512x64 S64x2048 S512x2048 [1] [0] [0] [1] [] []
  dot_S512x1024_S1024x1024_S512x1024_1_0_0_1_n_n_wf : DotDims.WF S512x1024 S1024x1024 S512x1024 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S2048x64.size a
  hwx0_7 : ∀ i : grid0.Coords, EltTy.bits .bf16 = 32 ∨ (Rect.block (s := S2048x64) S2048x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S32768x64.size a
  hwx0_9 : ∀ i : grid0.Coords, EltTy.bits .f32 = 32 ∨ (Rect.block (s := S32768x64) S512x64.size (cc0_transform_9 i) (hinb0_9 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2048x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x64 : Shape := ⟨2, ![32768, 64]⟩
abbrev S64x1024 : Shape := ⟨2, ![64, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1024x64 : Shape := ⟨2, ![1024, 64]⟩
abbrev S64 : Shape := ⟨1, ![64]⟩
abbrev S32768x1024 : Shape := ⟨2, ![32768, 1024]⟩
abbrev S1x1024 : Shape := ⟨2, ![1, 1024]⟩
abbrev S_ : Shape := ⟨0, ![]⟩
abbrev S32768x1 : Shape := ⟨2, ![32768, 1]⟩
abbrev S1x1 : Shape := ⟨2, ![1, 1]⟩
abbrev S32768x32 : Shape := ⟨2, ![32768, 32]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S64x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S64x1024, .f32⟩
  | .hbm, ⟨8, _⟩ => ⟨S1024, .f32⟩
  | .hbm, ⟨9, _⟩ => ⟨S1024x64, .f32⟩
  | .hbm, ⟨10, _⟩ => ⟨S64, .f32⟩
  | .hbm, ⟨11, _⟩ => ⟨S32768x1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1, .f32⟩
  | .hbm, ⟨28, _⟩ => ⟨S1x1, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x64, .f32⟩
  | .hbm, ⟨44, _⟩ => ⟨S32768x32, .f32⟩
  | .hbm, ⟨45, _⟩ => ⟨S32768x32, .f32⟩
  | .hbm, ⟨46, _⟩ => ⟨S32768x32, .f32⟩
  | .hbm, ⟨47, _⟩ => ⟨S32768x64, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x64, .f32⟩
  | .hbm, ⟨54, _⟩ => ⟨S1x64, .f32⟩
  | .hbm, ⟨55, _⟩ => ⟨S32768x64, .f32⟩
  | .hbm, ⟨56, _⟩ => ⟨S32768x64, .f32⟩
  | .hbm, ⟨57, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S_d0_1 : S32768x1.ReducesTo [0, 1] S_
  h_S_ : 0 < S_.numel
  bcast_S_S32768x1 : S_.BroadcastsInDim S32768x1 (![] : Fin 0 → Fin S32768x1.rank)
  slices_S32768x64_S32768x32_0_32 : S32768x64.Slices ![0, 32] S32768x32
  slices_S32768x64_S32768x32_0_0 : S32768x64.Slices ![0, 0] S32768x32
  concatenates_S32768x32_S32768x32_S32768x64_d1 : Shape.Concatenates [S32768x32, S32768x32] S32768x64 1
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x64_S64x1024_S32768x1024_1_0_0_1_n_n_wf : DotDims.WF S32768x64 S64x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x1_S32768x1_1_0_0_1_n_n_wf : DotDims.WF S32768x1024 S1024x1 S32768x1 [1] [0] [0] [1] [] []
  dot_S32768x1_S1024x1_S32768x1024_1_1_0_0_n_n_wf : DotDims.WF S32768x1 S1024x1 S32768x1024 [1] [1] [0] [0] [] []
  dot_S32768x1024_S1024x1024_S32768x1024_1_1_0_0_n_n_wf : DotDims.WF S32768x1024 S1024x1024 S32768x1024 [1] [1] [0] [0] [] []
  dot_S32768x1024_S64x1024_S32768x64_1_1_0_0_n_n_wf : DotDims.WF S32768x1024 S64x1024 S32768x64 [1] [1] [0] [0] [] []
  dot_S32768x1024_S1024x64_S32768x64_1_0_0_1_n_n_wf : DotDims.WF S32768x1024 S1024x64 S32768x64 [1] [0] [0] [1] [] []

variable [Facts₀]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf
def dot_S32768x1_S1024x1_S32768x1024_1_1_0_0_n_n : DotDims S32768x1 S1024x1 S32768x1024 where
  lhsContracting := [1]
  rhsContracting := [1]
  lhsNonContracting := [0]
  rhsNonContracting := [0]
  lhsBatch := []
  rhsBatch := []
  wf := dot_S32768x1_S1024x1_S32768x1024_1_1_0_0_n_n_wf
def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf
def dot_S32768x1024_S64x1024_S32768x64_1_1_0_0_n_n : DotDims S32768x1024 S64x1024 S32768x64 where
  lhsContracting := [1]
  rhsContracting := [1]
  lhsNonContracting := [0]
  rhsNonContracting := [0]
  lhsBatch := []
  rhsBatch := []
  wf := dot_S32768x1024_S64x1024_S32768x64_1_1_0_0_n_n_wf
def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf

class Facts : Prop extends Facts₀ where

variable [Facts]
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.Algebra.lean ====
/-
  The mathematics that joins the two programs, on one batch row.

  Both programs push a row `x` through two dense tanh layers `h₁ = tanh (x·W₁ + b₁)`, `h₂ = tanh (h₁·W₂ + b₂)`, and
  differentiate the scalar `h₂·W₃` with respect to `x`. The derivative of `tanh` at a pre-activation whose value is
  `h` is `1 − h²`. One program writes the back-propagated quantity as `g·(1 − h·h)`; automatic differentiation
  writes `g·(1 − h) + g·(1 − h)·h`. These are the same real number, but NOT the same extended real when `g` is infinite
  (`⊤·(3/2) + ⊤·(3/2)·(−1/2) = ⊤ + ⊥`), so the comparison is made on entries known to be real. A value of `tanh` is
  always real (`±1` at the infinities); the weights are real by the precondition.

  The last step contracts the back-propagated row with `W₁`. One program negates the weights of half of the output
  columns BEFORE the contraction, the other negates the contracted value: `∑ⱼ gⱼ·(−wⱼ) = −∑ⱼ gⱼ·wⱼ`, again a law of
  real numbers that fails on `⊤ + ⊥`.
-/
import proofs.«113158_j89464168775889_2_alg».proof.Proof.LibReal

noncomputable section

namespace Cert.HamGrad

open Idealize.ShloMosaic Cert.LibReal

export Cert.LibReal (IsReal)

/-! ## One dense tanh layer, and the two spellings of the derivative through it -/

/-- A dense layer with `tanh` activation on one row: entry `j` is `tanh (∑ᵢ xᵢ·Wᵢⱼ + cⱼ)`. -/
def layer {a b : ℕ} (x : Fin a → EReal) (W : Fin a → Fin b → EReal) (c : Fin b → EReal) (j : Fin b) : EReal :=
  Ideal.tanh (∑ i, x i * W i j + c j)

theorem layer_real {a b : ℕ} (x : Fin a → EReal) (W : Fin a → Fin b → EReal) (c : Fin b → EReal) (j : Fin b) :
    IsReal (layer x W c j) := IsReal.tanh _

/-- Back through `tanh` with the square: `g·(1 − h·h)`. -/
def backSq (g h : EReal) : EReal := g * (1 - h * h)

/-- Back through `tanh` as automatic differentiation writes it: `g·(1 − h) + g·(1 − h)·h`. -/
def backAd (g h : EReal) : EReal := g * (1 - h) + g * (1 - h) * h

/-- On real numbers the two spellings agree: `g(1 − h) + g(1 − h)h = g(1 − h)(1 + h) = g(1 − h²)`. -/
theorem backAd_eq_backSq {g h : EReal} (hg : IsReal g) (hh : IsReal h) : backAd g h = backSq g h := by
  obtain ⟨a, rfl⟩ := hg; obtain ⟨b, rfl⟩ := hh
  unfold backAd backSq
  norm_cast
  ring

theorem backSq_real {g h : EReal} (hg : IsReal g) (hh : IsReal h) : IsReal (backSq g h) :=
  hg.mul (IsReal.one.sub (hh.mul hh))

/-! ## The gradient with respect to the first layer's pre-activation -/

section Grad
variable {n : ℕ} (W3 : Fin n → Fin 1 → EReal) (W2 : Fin n → Fin n → EReal) (h1 h2 : Fin n → EReal)

/-- With the square: the seed is the last layer's weight column itself. -/
def gSq2 (k : Fin n) : EReal := backSq (W3 k 0) (h2 k)
/-- … and one more layer back, contracting with `W₂` transposed. -/
def gSq1 (j : Fin n) : EReal := backSq (∑ k, gSq2 W3 h2 k * W2 j k) (h1 j)

/-- As automatic differentiation writes it: the seed is the all-ones cotangent contracted with the weight column over
    its one output. -/
def gAd2 (k : Fin n) : EReal := backAd (∑ o : Fin 1, 1 * W3 k o) (h2 k)
def gAd1 (j : Fin n) : EReal := backAd (∑ k, gAd2 W3 h2 k * W2 j k) (h1 j)

variable (hW3 : ∀ k o, IsReal (W3 k o)) (hW2 : ∀ j k, IsReal (W2 j k)) (hh1 : ∀ j, IsReal (h1 j)) (hh2 : ∀ k, IsReal (h2 k))
include hW3 hh2 in
theorem gAd2_eq (k : Fin n) : gAd2 W3 h2 k = gSq2 W3 h2 k := by
  unfold gAd2 gSq2
  rw [Fin.sum_univ_one, one_mul]
  exact backAd_eq_backSq (hW3 k 0) (hh2 k)

include hW3 hh2 in
theorem gSq2_real (k : Fin n) : IsReal (gSq2 W3 h2 k) := backSq_real (hW3 k 0) (hh2 k)

include hW3 hW2 hh1 hh2 in
theorem gAd1_eq (j : Fin n) : gAd1 W3 W2 h1 h2 j = gSq1 W3 W2 h1 h2 j := by
  unfold gAd1 gSq1
  rw [Finset.sum_congr rfl fun k _ => by rw [gAd2_eq W3 h2 hW3 hh2 k]]
  exact backAd_eq_backSq (IsReal.sum _ _ fun k => (gSq2_real W3 h2 hW3 hh2 k).mul (hW2 j k)) (hh1 j)

include hW3 hW2 hh1 hh2 in
theorem gSq1_real (j : Fin n) : IsReal (gSq1 W3 W2 h1 h2 j) :=
  backSq_real (IsReal.sum _ _ fun k => (gSq2_real W3 h2 hW3 hh2 k).mul (hW2 j k)) (hh1 j)

include hW3 hW2 hh1 hh2 in
/-- The gradient's entry against a weight row `w`: the same sum in both spellings. -/
theorem grad_eq (w : Fin n → EReal) :
    ∑ j, gSq1 W3 W2 h1 h2 j * w j = ∑ j, gAd1 W3 W2 h1 h2 j * w j :=
  Finset.sum_congr rfl fun j _ => by rw [gAd1_eq W3 W2 h1 h2 hW3 hW2 hh1 hh2 j]

include hW3 hW2 hh1 hh2 in
/-- Against a NEGATED real weight row the sum is the negative of the other spelling's sum. -/
theorem grad_neg_eq (w : Fin n → EReal) (hw : ∀ j, IsReal (w j)) :
    ∑ j, gSq1 W3 W2 h1 h2 j * -(w j) = -(∑ j, gAd1 W3 W2 h1 h2 j * w j) := by
  rw [← grad_eq W3 W2 h1 h2 hW3 hW2 hh1 hh2 w, ← sum_neg_of_real _ _ fun j => (gSq1_real W3 W2 h1 h2 hW3 hW2 hh1 hh2 j).mul (hw j)]
  exact Finset.sum_congr rfl fun j _ => mul_neg _ _

end Grad

/-! ## The halves of the two split axes -/

/-- The hidden axis doubled: the first 1024 of 2048 positions. -/
def lo1024 (j : Fin 1024) : Fin 2048 := ⟨j.val, by have := j.isLt; omega⟩
/-- … and the last 1024. -/
def hi1024 (j : Fin 1024) : Fin 2048 := ⟨1024 + j.val, by have := j.isLt; omega⟩
/-- The phase-space axis: positions (the first 32 of 64 coordinates) … -/
def lo32 (q : Fin 32) : Fin 64 := ⟨q.val, by have := q.isLt; omega⟩
/-- … and momenta (the last 32). -/
def hi32 (q : Fin 32) : Fin 64 := ⟨32 + q.val, by have := q.isLt; omega⟩

/-- A sum over the doubled hidden axis is the sum over its first half plus the sum over its second. -/
theorem sum_halves {M : Type} [AddCommMonoid M] (f : Fin 2048 → M) :
    ∑ j, f j = ∑ j, f (lo1024 j) + ∑ j, f (hi1024 j) :=
  Fin.sum_univ_add (a := 1024) (b := 1024) f

/-- Every phase-space coordinate is a position or a momentum. -/
theorem fin64_cases (q : Fin 64) : (∃ q', q = lo32 q') ∨ (∃ q', q = hi32 q') := by
  by_cases h : q.val < 32
  · exact .inl ⟨⟨q.val, h⟩, rfl⟩
  · exact .inr ⟨⟨q.val - 32, by have := q.isLt; omega⟩, Fin.ext (by show q.val = 32 + (q.val - 32); omega)⟩

/-! ## One output row, in the two programs' spellings -/

section Out
variable (x : Fin 64 → EReal) (W1 : Fin 64 → Fin 1024 → EReal) (b1 : Fin 1024 → EReal)
  (W2 : Fin 1024 → Fin 1024 → EReal) (b2 : Fin 1024 → EReal) (W3 : Fin 1024 → Fin 1 → EReal)
  (Wf1 : Fin 64 → Fin 1024 → EReal) (bf1 : Fin 1024 → EReal) (Wf2 : Fin 1024 → Fin 64 → EReal) (bf2 : Fin 64 → EReal)

/-- The first hidden layer of the Hamiltonian network. -/
def hid1 : Fin 1024 → EReal := layer x W1 b1
/-- Its second hidden layer. -/
def hid2 : Fin 1024 → EReal := layer (hid1 x W1 b1) W2 b2
/-- The hidden layer of the forcing network. -/
def hidF : Fin 1024 → EReal := layer x Wf1 bf1
/-- The forcing network's output before its bias. -/
def force (q : Fin 64) : EReal := ∑ j, hidF x Wf1 bf1 j * Wf2 j q

/-- Output coordinate `q` among the positions: `∂H/∂p_q` plus the forcing term, with the square spelling and the sum
    grouped as (gradient + forcing) + bias. -/
def sqLo (q : Fin 32) : EReal :=
  (∑ j, gSq1 W3 W2 (hid1 x W1 b1) (hid2 x W1 b1 W2 b2) j * W1 (hi32 q) j + force x Wf1 bf1 Wf2 (lo32 q)) + bf2 (lo32 q)
/-- Output coordinate `32 + q` among the momenta: `−∂H/∂q_q` plus the forcing term, the sign carried by the weights. -/
def sqHi (q : Fin 32) : EReal :=
  (∑ j, gSq1 W3 W2 (hid1 x W1 b1) (hid2 x W1 b1 W2 b2) j * -(W1 (lo32 q) j) + force x Wf1 bf1 Wf2 (hi32 q)) + bf2 (hi32 q)

/-- The same two coordinates as automatic differentiation and the symplectic recombination write them: gradient (or its
    negative) + (forcing + bias). -/
def adLo (q : Fin 32) : EReal :=
  (∑ j, gAd1 W3 W2 (hid1 x W1 b1) (hid2 x W1 b1 W2 b2) j * W1 (hi32 q) j) + (force x Wf1 bf1 Wf2 (lo32 q) + bf2 (lo32 q))
def adHi (q : Fin 32) : EReal :=
  -(∑ j, gAd1 W3 W2 (hid1 x W1 b1) (hid2 x W1 b1 W2 b2) j * W1 (lo32 q) j) + (force x Wf1 bf1 Wf2 (hi32 q) + bf2 (hi32 q))

/-- One output row as a function of the phase-space coordinate, square spelling. -/
def sqOut (q : Fin 64) : EReal :=
  if h : q.val < 32 then sqLo x W1 b1 W2 b2 W3 Wf1 bf1 Wf2 bf2 ⟨q.val, h⟩
  else sqHi x W1 b1 W2 b2 W3 Wf1 bf1 Wf2 bf2 ⟨q.val - 32, by have := q.isLt; omega⟩

theorem sqOut_lo (q : Fin 32) : sqOut x W1 b1 W2 b2 W3 Wf1 bf1 Wf2 bf2 (lo32 q) = sqLo x W1 b1 W2 b2 W3 Wf1 bf1 Wf2 bf2 q := by
  unfold sqOut
  rw [dif_pos (show (lo32 q).val < 32 from q.isLt)]
  rfl

theorem sqOut_hi (q : Fin 32) : sqOut x W1 b1 W2 b2 W3 Wf1 bf1 Wf2 bf2 (hi32 q) = sqHi x W1 b1 W2 b2 W3 Wf1 bf1 Wf2 bf2 q := by
  unfold sqOut
  rw [dif_neg (show ¬(hi32 q).val < 32 by show ¬(32 + q.val < 32); omega)]
  congr 1
  exact Fin.ext (by show 32 + q.val - 32 = q.val; omega)

variable (hW1 : ∀ i j, IsReal (W1 i j)) (hW2 : ∀ j k, IsReal (W2 j k)) (hW3 : ∀ k o, IsReal (W3 k o))

include hW2 hW3 in
/-- With real weights `W₂`, `W₃` the two spellings of a position coordinate agree. -/
theorem sqLo_eq_adLo (q : Fin 32) :
    sqLo x W1 b1 W2 b2 W3 Wf1 bf1 Wf2 bf2 q = adLo x W1 b1 W2 b2 W3 Wf1 bf1 Wf2 bf2 q := by
  unfold sqLo adLo
  rw [grad_eq W3 W2 (hid1 x W1 b1) (hid2 x W1 b1 W2 b2) hW3 hW2 (fun j => layer_real _ _ _ j) (fun k => layer_real _ _ _ k)
    (W1 (hi32 q)), add_assoc]

include hW1 hW2 hW3 in
/-- With real weights the two spellings of a momentum coordinate agree. -/
theorem sqHi_eq_adHi (q : Fin 32) :
    sqHi x W1 b1 W2 b2 W3 Wf1 bf1 Wf2 bf2 q = adHi x W1 b1 W2 b2 W3 Wf1 bf1 Wf2 bf2 q := by
  unfold sqHi adHi
  rw [grad_neg_eq W3 W2 (hid1 x W1 b1) (hid2 x W1 b1 W2 b2) hW3 hW2 (fun j => layer_real _ _ _ j) (fun k => layer_real _ _ _ k)
    (W1 (lo32 q)) (fun j => hW1 (lo32 q) j), add_assoc]

end Out

end Cert.HamGrad

end
-- ==== Proof.KernelRows.lean ====
/-
  The kernel body's arithmetic on one block, read entry by entry.

  A grid point holds 512 batch rows. Its body forms, for each row, the two first-layer pre-activations at once (one
  product against the two weight matrices laid side by side, 2048 columns), splits them, applies tanh, runs the second
  layer, back-propagates the scalar output's gradient through both tanh layers, lays the back-propagated row beside the
  forcing network's hidden row (2048 columns again) and contracts once with the two output matrices stacked. Each
  matrix product read at an entry is a plain finite sum of products; each re-laying (slice, broadcast of a one-row
  bias, concatenation) reads one entry of its operand.
-/
import proofs.«113158_j89464168775889_2_alg».proof.Proof.Gen.KernelIdeal.Skeleton
import proofs.«113158_j89464168775889_2_alg».proof.Proof.Algebra
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Rows

open Cert.KernelIdeal Cert.KernelIdeal.Gen Idealize.ShloMosaic Idealize.ShloMosaic.ValueIdx Cert.HamGrad

/-! ## The three matrix products at an entry -/

theorem mmIn_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl

theorem mmIn_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- A [512, 64] by [64, 2048] product into a zero accumulator, at row `p` and column `j`: the sum over the 64 contracted
    positions of the row's entry times the column's. -/
theorem mmIn_apply {φ₁ φ₂ : FTy} (l : FVec Ideal S512x64 φ₁) (r : FVec Ideal S64x2048 φ₂) (p : Fin 512) (j : Fin 2048) :
    matmul dot_S512x64_S64x2048_S512x2048_1_0_0_1_n_n none l r (constant S512x2048 .f32 0x00000000#32) (ix2 p j) = ∑ k : Fin 64, l (ix2 p k) * r (ix2 k j) := by
  show FloatOps.matmul dot_S512x64_S64x2048_S512x2048_1_0_0_1_n_n none l r (constant S512x2048 .f32 0x00000000#32) (ix2 p j) = _
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p j) ((ValueIdx.contrEquiv1 dot_S512x64_S64x2048_S512x2048_1_0_0_1_n_n 64 rfl rfl).symm k) = ix2 p k := funext fun a => Fin.ext (by
    match a with
    | ⟨0, _⟩ => exact mmIn_lhs0 _ _
    | ⟨1, _⟩ => exact (dot_S512x64_S64x2048_S512x2048_1_0_0_1_n_n.lhsIdx_val_of_single rfl _ _).trans hk)
  have er : dot_S512x64_S64x2048_S512x2048_1_0_0_1_n_n.rhsIdx (ix2 p j) ((ValueIdx.contrEquiv1 dot_S512x64_S64x2048_S512x2048_1_0_0_1_n_n 64 rfl rfl).symm k) = ix2 k j := funext fun a => Fin.ext (by
    match a with
    | ⟨0, _⟩ => exact (dot_S512x64_S64x2048_S512x2048_1_0_0_1_n_n.rhsIdx_val_of_single rfl _ _).trans hk
    | ⟨1, _⟩ => exact mmIn_rhs1 _ _)
  rw [el, er]

theorem mmHid_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem mmHid_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512, 1024] by [1024, 1024] product into a zero accumulator, at row `p` and column `j`: the sum over the 1024 contracted
    positions of the row's entry times the column's. -/
theorem mmHid_apply {φ₁ φ₂ : FTy} (l : FVec Ideal S512x1024 φ₁) (r : FVec Ideal S1024x1024 φ₂) (p : Fin 512) (j : Fin 1024) :
    matmul dot_S512x1024_S1024x1024_S512x1024_1_0_0_1_n_n none l r (constant S512x1024 .f32 0x00000000#32) (ix2 p j) = ∑ k : Fin 1024, l (ix2 p k) * r (ix2 k j) := by
  show FloatOps.matmul dot_S512x1024_S1024x1024_S512x1024_1_0_0_1_n_n none l r (constant S512x1024 .f32 0x00000000#32) (ix2 p j) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p j) ((ValueIdx.contrEquiv1 dot_S512x1024_S1024x1024_S512x1024_1_0_0_1_n_n 1024 rfl rfl).symm k) = ix2 p k := funext fun a => Fin.ext (by
    match a with
    | ⟨0, _⟩ => exact mmHid_lhs0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p j) ((ValueIdx.contrEquiv1 dot_S512x1024_S1024x1024_S512x1024_1_0_0_1_n_n 1024 rfl rfl).symm k) = ix2 k j := funext fun a => Fin.ext (by
    match a with
    | ⟨0, _⟩ => exact (dot_S512x1024_S1024x1024_S512x1024_1_0_0_1_n_n.rhsIdx_val_of_single rfl _ _).trans hk
    | ⟨1, _⟩ => exact mmHid_rhs1 _ _)
  rw [el, er]

theorem mmOut_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

theorem mmOut_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- A [512, 2048] by [2048, 64] product into a zero accumulator, at row `p` and column `j`: the sum over the 2048 contracted
    positions of the row's entry times the column's. -/
theorem mmOut_apply {φ₁ φ₂ : FTy} (l : FVec Ideal S512x2048 φ₁) (r : FVec Ideal S2048x64 φ₂) (p : Fin 512) (j : Fin 64) :
    matmul dot_S512x2048_S2048x64_S512x64_1_0_0_1_n_n none l r (constant S512x64 .f32 0x00000000#32) (ix2 p j) = ∑ k : Fin 2048, l (ix2 p k) * r (ix2 k j) := by
  show FloatOps.matmul dot_S512x2048_S2048x64_S512x64_1_0_0_1_n_n none l r (constant S512x64 .f32 0x00000000#32) (ix2 p j) = _
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p j) ((ValueIdx.contrEquiv1 dot_S512x2048_S2048x64_S512x64_1_0_0_1_n_n 2048 rfl rfl).symm k) = ix2 p k := funext fun a => Fin.ext (by
    match a with
    | ⟨0, _⟩ => exact mmOut_lhs0 _ _
    | ⟨1, _⟩ => exact (dot_S512x2048_S2048x64_S512x64_1_0_0_1_n_n.lhsIdx_val_of_single rfl _ _).trans hk)
  have er : dot_S512x2048_S2048x64_S512x64_1_0_0_1_n_n.rhsIdx (ix2 p j) ((ValueIdx.contrEquiv1 dot_S512x2048_S2048x64_S512x64_1_0_0_1_n_n 2048 rfl rfl).symm k) = ix2 k j := funext fun a => Fin.ext (by
    match a with
    | ⟨0, _⟩ => exact (dot_S512x2048_S2048x64_S512x64_1_0_0_1_n_n.rhsIdx_val_of_single rfl _ _).trans hk
    | ⟨1, _⟩ => exact mmOut_rhs1 _ _)
  rw [el, er]

/-! ## Small readings -/

theorem tanh_apply {s : Shape} {φ : FTy} (a : FVec Ideal s φ) (i : s.Idx) : tanh a i = Ideal.tanh (a i) := rfl

/-- The word `0x3F800000` is the number one. -/
theorem one_word : Scalar.ofBits (F := Ideal) .f32 0x3F800000#32 = (1 : EReal) := Ideal.ofBits_one_f32

/-! ## The fused first-layer pre-activation -/

/-- Row `p`, column `j` of the 2048 fused columns: the row of the input block against column `j` of the fused
    weights, plus the fused bias. -/
theorem pay2_apply (x0 : Vec Ideal S512x64 .f32) (x1 : Vec Ideal S64x2048 .bf16) (x2 : Vec Ideal S1x2048 .f32) (p : Fin 512) (j : Fin 2048) :
    k0_pay2 x0 x1 x2 (ix2 p j) = (∑ i : Fin 64, (x0 (ix2 p i) : EReal) * (x1 (ix2 i j) : EReal)) + (x2 (ix2 (0 : Fin 1) j) : EReal) := by
  unfold k0_pay2
  rw [addf_apply, mmIn_apply, broadcastTo_1b_ab_apply, shapeCast_self, shapeCast_self]
  rfl

/-! ## The forcing network's hidden row -/

/-- Entry `j` is tanh of the fused pre-activation's column `1024 + j`. -/
theorem pay4_apply (x0 : Vec Ideal S512x64 .f32) (x1 : Vec Ideal S64x2048 .bf16) (x2 : Vec Ideal S1x2048 .f32) (p : Fin 512) (j : Fin 1024) :
    k0_pay4 x0 x1 x2 (ix2 p j) = Ideal.tanh (k0_pay2 x0 x1 x2 (ix2 p (hi1024 j))) := by
  unfold k0_pay4
  rw [truncf_apply, tanh_apply, slice2_axis1_apply 1024 _ _ p j (hi1024 j) rfl]

/-! ## The back-propagated row -/

/-- Entry `j` of the gradient with respect to the first layer's pre-activation, in the square spelling: with
    `h₁ = tanh` of the fused pre-activation's first 1024 columns and `h₂ = tanh (h₁·W₂ + b₂)`, it is
    `(∑ₖ w₃ₖ (1 − h₂ₖ²) · W₂ᵀₖⱼ) · (1 − h₁ⱼ²)`. -/
theorem pay3_apply (x0 : Vec Ideal S512x64 .f32) (x1 : Vec Ideal S64x2048 .bf16) (x2 : Vec Ideal S1x2048 .f32)
    (x3 : Vec Ideal S1024x1024 .bf16) (x5 : Vec Ideal S1x1024 .f32) (x6 : Vec Ideal S1x1024 .f32) (x4 : Vec Ideal S1024x1024 .bf16)
    (p : Fin 512) (j : Fin 1024) :
    k0_pay3 x0 x1 x2 x3 x5 x6 x4 (ix2 p j)
      = backSq (∑ k : Fin 1024,
          backSq (x6 (ix2 (0 : Fin 1) k))
            (Ideal.tanh ((∑ j' : Fin 1024, Ideal.tanh (k0_pay2 x0 x1 x2 (ix2 p (lo1024 j'))) * (x3 (ix2 j' k) : EReal)) + (x5 (ix2 (0 : Fin 1) k) : EReal)))
          * (x4 (ix2 k j) : EReal))
        (Ideal.tanh (k0_pay2 x0 x1 x2 (ix2 p (lo1024 j)))) := by
  unfold k0_pay3
  simp only [truncf_apply, mulf_apply, subf_apply, addf_apply, tanh_apply, broadcast_apply, mmHid_apply, broadcastTo_1b_ab_apply,
    shapeCast_self, slice2_axis1_eq, one_word, Nat.zero_add]
  rfl

/-! ## The output row -/

/-- Entry `q` of the output block's row `p`: the back-propagated row laid beside the forcing hidden row, contracted with
    the stacked output weights — the sum over the first 1024 stacked rows plus the sum over the last 1024 — plus the
    output bias. -/
theorem pay1_apply (g hf : FVec Ideal S512x1024 .bf16) (x7 : Vec Ideal S2048x64 .bf16) (x8 : Vec Ideal S1x64 .f32) (p : Fin 512) (q : Fin 64) :
    k0_pay1 g hf x7 x8 (ix2 p q)
      = ((∑ j : Fin 1024, (g (ix2 p j) : EReal) * (x7 (ix2 (lo1024 j) q) : EReal)) + ∑ j : Fin 1024, (hf (ix2 p j) : EReal) * (x7 (ix2 (hi1024 j) q) : EReal))
        + (x8 (ix2 (0 : Fin 1) q) : EReal) := by
  unfold k0_pay1
  rw [addf_apply, mmOut_apply, broadcastTo_1b_ab_apply, shapeCast_self, shapeCast_self, sum_halves]
  congr 1
  congr 1
  · refine Finset.sum_congr rfl fun j _ => ?_
    rw [concatenate_pair_apply_left (t := S512x2048) (s₁ := S512x1024) (s₂ := S512x1024) 1 _ _ _ (ix2 p (lo1024 j)) rfl (ix2 p j)
      (fun b => by match b with | ⟨0, _⟩ => rfl | ⟨1, _⟩ => rfl)]
  · refine Finset.sum_congr rfl fun j _ => ?_
    rw [concatenate_pair_apply_right (t := S512x2048) (s₁ := S512x1024) (s₂ := S512x1024) 1 _ _ _ (ix2 p (hi1024 j)) rfl rfl (ix2 p j)
      (fun b hb => by match b with | ⟨0, _⟩ => rfl | ⟨1, _⟩ => exact absurd rfl hb)
      (by show j.val + 1024 = 1024 + j.val; omega)]

/-! ## One entry of the body's result, from what the staged blocks hold -/

section Body
variable (x0 : Vec Ideal S512x64 .f32) (x1 : Vec Ideal S64x2048 .bf16) (x2 : Vec Ideal S1x2048 .f32)
  (x3 : Vec Ideal S1024x1024 .bf16) (x4 : Vec Ideal S1024x1024 .bf16) (x5 : Vec Ideal S1x1024 .f32) (x6 : Vec Ideal S1x1024 .f32)
  (x7 : Vec Ideal S2048x64 .bf16) (x8 : Vec Ideal S1x64 .f32) (p : Fin 512)
  (x : Fin 64 → EReal) (W1 : Fin 64 → Fin 1024 → EReal) (b1 : Fin 1024 → EReal)
  (W2 : Fin 1024 → Fin 1024 → EReal) (b2 : Fin 1024 → EReal) (W3 : Fin 1024 → Fin 1 → EReal)
  (Wf1 : Fin 64 → Fin 1024 → EReal) (bf1 : Fin 1024 → EReal) (Wf2 : Fin 1024 → Fin 64 → EReal) (bf2 : Fin 64 → EReal)
  (h0 : ∀ i, (x0 (ix2 p i) : EReal) = x i)
  (h1lo : ∀ i j, (x1 (ix2 i (lo1024 j)) : EReal) = W1 i j) (h1hi : ∀ i j, (x1 (ix2 i (hi1024 j)) : EReal) = Wf1 i j)
  (h2lo : ∀ j, (x2 (ix2 (0 : Fin 1) (lo1024 j)) : EReal) = b1 j) (h2hi : ∀ j, (x2 (ix2 (0 : Fin 1) (hi1024 j)) : EReal) = bf1 j)
  (h3 : ∀ j k, (x3 (ix2 j k) : EReal) = W2 j k) (h4 : ∀ k j, (x4 (ix2 k j) : EReal) = W2 j k)
  (h5 : ∀ k, (x5 (ix2 (0 : Fin 1) k) : EReal) = b2 k) (h6 : ∀ k, (x6 (ix2 (0 : Fin 1) k) : EReal) = W3 k 0)
  (h7ll : ∀ j q, (x7 (ix2 (lo1024 j) (lo32 q)) : EReal) = W1 (hi32 q) j)
  (h7lh : ∀ j q, (x7 (ix2 (lo1024 j) (hi32 q)) : EReal) = -(W1 (lo32 q) j))
  (h7h : ∀ j q, (x7 (ix2 (hi1024 j) q) : EReal) = Wf2 j q) (h8 : ∀ q, (x8 (ix2 (0 : Fin 1) q) : EReal) = bf2 q)

include h0 h1lo h2lo in
/-- The first hidden row of the Hamiltonian network, off the fused pre-activation's first half. -/
theorem hid1_of_blocks (j : Fin 1024) : Ideal.tanh (k0_pay2 x0 x1 x2 (ix2 p (lo1024 j))) = hid1 x W1 b1 j := by
  rw [pay2_apply]
  simp only [h0, h1lo, h2lo]
  rfl

include h0 h1hi h2hi in
/-- The forcing network's hidden row, off its second half. -/
theorem hidF_of_blocks (j : Fin 1024) : Ideal.tanh (k0_pay2 x0 x1 x2 (ix2 p (hi1024 j))) = hidF x Wf1 bf1 j := by
  rw [pay2_apply]
  simp only [h0, h1hi, h2hi]
  rfl

include h0 h1lo h2lo h3 h4 h5 h6 in
/-- The back-propagated row is the gradient with respect to the first layer's pre-activation, square spelling. -/
theorem gSq1_of_blocks (j : Fin 1024) :
    k0_pay3 x0 x1 x2 x3 x5 x6 x4 (ix2 p j) = gSq1 W3 W2 (hid1 x W1 b1) (hid2 x W1 b1 W2 b2) j := by
  rw [pay3_apply]
  simp only [hid1_of_blocks x0 x1 x2 p x W1 b1 h0 h1lo h2lo, h3, h4, h5, h6]
  rfl

include h0 h1lo h1hi h2lo h2hi h3 h4 h5 h6 h7ll h7h h8 in
/-- A position coordinate of the block's row `p`. -/
theorem body_lo (q : Fin 32) :
    k0_pay1 (k0_pay3 x0 x1 x2 x3 x5 x6 x4) (k0_pay4 x0 x1 x2) x7 x8 (ix2 p (lo32 q)) = sqLo x W1 b1 W2 b2 W3 Wf1 bf1 Wf2 bf2 q := by
  rw [pay1_apply]
  simp only [gSq1_of_blocks x0 x1 x2 x3 x4 x5 x6 p x W1 b1 W2 b2 W3 h0 h1lo h2lo h3 h4 h5 h6, pay4_apply,
    hidF_of_blocks x0 x1 x2 p x Wf1 bf1 h0 h1hi h2hi, h7ll, h7h, h8]
  rfl

include h0 h1lo h1hi h2lo h2hi h3 h4 h5 h6 h7lh h7h h8 in
/-- A momentum coordinate of the block's row `p`. -/
theorem body_hi (q : Fin 32) :
    k0_pay1 (k0_pay3 x0 x1 x2 x3 x5 x6 x4) (k0_pay4 x0 x1 x2) x7 x8 (ix2 p (hi32 q)) = sqHi x W1 b1 W2 b2 W3 Wf1 bf1 Wf2 bf2 q := by
  rw [pay1_apply]
  simp only [gSq1_of_blocks x0 x1 x2 x3 x4 x5 x6 p x W1 b1 W2 b2 W3 h0 h1lo h2lo h3 h4 h5 h6, pay4_apply,
    hidF_of_blocks x0 x1 x2 p x Wf1 bf1 h0 h1hi h2hi, h7lh, h7h, h8]
  rfl

end Body

end Cert.KernelIdeal.Rows

end
-- ==== Proof.Windows.lean ====
/-
  The arrays the kernel's windows stage, as the region finds them, read at an entry.

  Before the launch the host lays the two first-layer weight matrices side by side (64 × 2048) and their biases end to
  end, transposes the second-layer weights and the last layer's weight column, and builds the stacked output matrix
  (2048 × 64): on top the first-layer weights transposed, with the momentum columns first and the position columns
  NEGATED after them (the symplectic recombination folded into the weights), underneath the forcing network's output
  weights. Each of these is a re-laying of the argument arrays: an entry of the prepared array is one entry of one
  argument, negated in the one negated quarter. A change of float format is the identity on extended reals.
-/
import proofs.«113158_j89464168775889_2_alg».proof.Proof.Gen.KernelIdeal.Frame
import proofs.«113158_j89464168775889_2_alg».proof.Proof.Algebra
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem Idealize.ShloMosaic.ValueIdx Cert.HamGrad
open Idealize.ShloMosaic.StableHlo

variable (m : (ℓ : Loc nD τ sig) → Buf (Elt Ideal) ℓ)

/-! ## The argument arrays on a core, as arrays of extended reals -/

/-- The batch of phase-space points. -/
abbrev aZ (c : Dev nD) : S32768x64.Idx → EReal := m ((c : Thread nD τ).loc main_arg0)
/-- First-layer weights and bias of the Hamiltonian network. -/
abbrev aW1 (c : Dev nD) : S64x1024.Idx → EReal := m ((c : Thread nD τ).loc main_arg1)
abbrev ab1 (c : Dev nD) : S1024.Idx → EReal := m ((c : Thread nD τ).loc main_arg2)
/-- Its second layer. -/
abbrev aW2 (c : Dev nD) : S1024x1024.Idx → EReal := m ((c : Thread nD τ).loc main_arg3)
abbrev ab2 (c : Dev nD) : S1024.Idx → EReal := m ((c : Thread nD τ).loc main_arg4)
/-- Its last layer's weight column. -/
abbrev aW3 (c : Dev nD) : S1024x1.Idx → EReal := m ((c : Thread nD τ).loc main_arg5)
/-- The forcing network. -/
abbrev aWf1 (c : Dev nD) : S64x1024.Idx → EReal := m ((c : Thread nD τ).loc main_arg7)
abbrev abf1 (c : Dev nD) : S1024.Idx → EReal := m ((c : Thread nD τ).loc main_arg8)
abbrev aWf2 (c : Dev nD) : S1024x64.Idx → EReal := m ((c : Thread nD τ).loc main_arg9)
abbrev abf2 (c : Dev nD) : S64.Idx → EReal := m ((c : Thread nD τ).loc main_arg10)

/-! ## The fused first-layer weights and bias -/

/-- The first 1024 columns of the fused weights are the Hamiltonian network's. -/
theorem fusedW_lo (c : Dev nD) (i : Fin 64) (j : Fin 1024) :
    V m c main_v1 (ix2 i (lo1024 j)) = aW1 m c (ix2 i j) := by
  unfold V; after_results
  rw [truncf_apply]
  exact concatenate_pair_apply_left (t := S64x2048) (s₁ := S64x1024) (s₂ := S64x1024) 1 _ _ _ (ix2 i (lo1024 j)) rfl (ix2 i j)
    (fun b => by match b with | ⟨0, _⟩ => rfl | ⟨1, _⟩ => rfl)

/-- The last 1024 columns are the forcing network's. -/
theorem fusedW_hi (c : Dev nD) (i : Fin 64) (j : Fin 1024) :
    V m c main_v1 (ix2 i (hi1024 j)) = aWf1 m c (ix2 i j) := by
  unfold V; after_results
  rw [truncf_apply]
  exact concatenate_pair_apply_right (t := S64x2048) (s₁ := S64x1024) (s₂ := S64x1024) 1 _ _ _ (ix2 i (hi1024 j)) rfl rfl (ix2 i j)
    (fun b hb => by match b with | ⟨0, _⟩ => rfl | ⟨1, _⟩ => exact absurd rfl hb)
    (by show j.val + 1024 = 1024 + j.val; omega)

/-- The fused bias row: first the Hamiltonian network's bias … -/
theorem fusedB_lo (c : Dev nD) (j : Fin 1024) :
    V m c main_v3 (ix2 (0 : Fin 1) (lo1024 j)) = ab1 m c (ix1 j) := by
  unfold V; after_results
  refine (shapeCast_a_1a_apply _ _ (0 : Fin 1) (lo1024 j)).trans ?_
  exact concatenate_pair_apply_left (t := S2048) (s₁ := S1024) (s₂ := S1024) 0 _ _ _ (ix1 (lo1024 j)) rfl (ix1 j)
    (fun b => by match b with | ⟨0, _⟩ => rfl)

/-- … then the forcing network's. -/
theorem fusedB_hi (c : Dev nD) (j : Fin 1024) :
    V m c main_v3 (ix2 (0 : Fin 1) (hi1024 j)) = abf1 m c (ix1 j) := by
  unfold V; after_results
  refine (shapeCast_a_1a_apply _ _ (0 : Fin 1) (hi1024 j)).trans ?_
  exact concatenate_pair_apply_right (t := S2048) (s₁ := S1024) (s₂ := S1024) 0 _ _ _ (ix1 (hi1024 j)) rfl rfl (ix1 j)
    (fun b hb => by match b with | ⟨0, _⟩ => exact absurd rfl hb)
    (by show j.val + 1024 = 1024 + j.val; omega)

/-! ## The second layer, straight and transposed; its bias; the last layer's column as a row -/

theorem w2_apply (c : Dev nD) (j k : Fin 1024) : V m c main_v4 (ix2 j k) = aW2 m c (ix2 j k) := by
  unfold V; after_results; rfl

theorem w2T_apply (c : Dev nD) (k j : Fin 1024) : V m c main_v6 (ix2 k j) = aW2 m c (ix2 j k) := by
  unfold V; after_results
  rw [truncf_apply]
  exact transpose_ix2_apply _ _ k j

theorem b2_apply (c : Dev nD) (k : Fin 1024) : V m c main_v7 (ix2 (0 : Fin 1) k) = ab2 m c (ix1 k) := by
  unfold V; after_results
  exact shapeCast_a_1a_apply _ _ (0 : Fin 1) k

theorem w3row_apply (c : Dev nD) (k : Fin 1024) : V m c main_v8 (ix2 (0 : Fin 1) k) = aW3 m c (ix2 k (0 : Fin 1)) := by
  unfold V; after_results
  exact transpose_ix2_apply _ _ (0 : Fin 1) k

/-! ## The stacked output weights and the output bias -/

/-- Top half, momentum columns first: output column `q < 32` reads the first-layer weights' row `32 + q`. -/
theorem stack_top_lo (c : Dev nD) (j : Fin 1024) (q : Fin 32) :
    V m c main_v15 (ix2 (lo1024 j) (lo32 q)) = aW1 m c (ix2 (hi32 q) j) := by
  unfold V; after_results
  rw [truncf_apply]
  refine (concatenate_pair_apply_left (t := S2048x64) (s₁ := S1024x64) (s₂ := S1024x64) 0 _ _ _ (ix2 (lo1024 j) (lo32 q)) rfl (ix2 j (lo32 q))
    (fun b => by match b with | ⟨0, _⟩ => rfl | ⟨1, _⟩ => rfl)).trans ?_
  refine (concatenate_pair_apply_left (t := S1024x64) (s₁ := S1024x32) (s₂ := S1024x32) 1 _ _ _ (ix2 j (lo32 q)) rfl (ix2 j q)
    (fun b => by match b with | ⟨0, _⟩ => rfl | ⟨1, _⟩ => rfl)).trans ?_
  refine (slice2_axis1_apply 32 _ _ j q (hi32 q) rfl).trans ?_
  exact transpose_ix2_apply _ _ j (hi32 q)

/-- Top half, then the position columns NEGATED: output column `32 + q` reads minus the first-layer weights' row `q`. -/
theorem stack_top_hi (c : Dev nD) (j : Fin 1024) (q : Fin 32) :
    V m c main_v15 (ix2 (lo1024 j) (hi32 q)) = -(aW1 m c (ix2 (lo32 q) j)) := by
  unfold V; after_results
  rw [truncf_apply]
  refine (concatenate_pair_apply_left (t := S2048x64) (s₁ := S1024x64) (s₂ := S1024x64) 0 _ _ _ (ix2 (lo1024 j) (hi32 q)) rfl (ix2 j (hi32 q))
    (fun b => by match b with | ⟨0, _⟩ => rfl | ⟨1, _⟩ => rfl)).trans ?_
  refine (concatenate_pair_apply_right (t := S1024x64) (s₁ := S1024x32) (s₂ := S1024x32) 1 _ _ _ (ix2 j (hi32 q)) rfl rfl (ix2 j q)
    (fun b hb => by match b with | ⟨0, _⟩ => rfl | ⟨1, _⟩ => exact absurd rfl hb)
    (by show q.val + 32 = 32 + q.val; omega)).trans ?_
  refine congrArg (Neg.neg (α := EReal)) ?_
  refine (slice2_axis1_apply 0 _ _ j q (lo32 q) (by show q.val = 0 + q.val; omega)).trans ?_
  exact transpose_ix2_apply _ _ j (lo32 q)

/-- Bottom half: the forcing network's output weights. -/
theorem stack_bot (c : Dev nD) (j : Fin 1024) (q : Fin 64) :
    V m c main_v15 (ix2 (hi1024 j) q) = aWf2 m c (ix2 j q) := by
  unfold V; after_results
  rw [truncf_apply]
  exact concatenate_pair_apply_right (t := S2048x64) (s₁ := S1024x64) (s₂ := S1024x64) 0 _ _ _ (ix2 (hi1024 j) q) rfl rfl (ix2 j q)
    (fun b hb => by match b with | ⟨0, _⟩ => exact absurd rfl hb | ⟨1, _⟩ => rfl)
    (by show j.val + 1024 = 1024 + j.val; omega)

theorem bf2_apply (c : Dev nD) (q : Fin 64) : V m c main_v16 (ix2 (0 : Fin 1) q) = abf2 m c (ix1 q) := by
  unfold V; after_results
  exact shapeCast_a_1a_apply _ _ (0 : Fin 1) q

end Cert.KernelIdeal.Windows

end
-- ==== Proof.Spec.lean ====
/-
  The result array both programs are compared to, as one function of the argument arrays.

  Row `b` of the result depends on row `b` of the batch only: it is the per-row output of Algebra.lean (square
  spelling) at that row, with the weight matrices and bias vectors read as functions of their coordinates.
-/
import proofs.«113158_j89464168775889_2_alg».proof.Proof.Algebra
import Idealize.ShloMosaic.Lib.ValueIdx

noncomputable section

namespace Cert.HamGrad

open Idealize.ShloMosaic Idealize.ShloMosaic.ValueIdx

/-- Row `r` of a matrix, as a function of the column. -/
def row {a b : ℕ} (A : (⟨2, ![a, b]⟩ : Shape).Idx → EReal) (r : Fin a) : Fin b → EReal := fun i => A (ix2 r i)
/-- A matrix as a function of row and column. -/
def mat {a b : ℕ} (A : (⟨2, ![a, b]⟩ : Shape).Idx → EReal) : Fin a → Fin b → EReal := fun i j => A (ix2 i j)
/-- A vector as a function of its position. -/
def vec {a : ℕ} (A : (⟨1, ![a]⟩ : Shape).Idx → EReal) : Fin a → EReal := fun i => A (ix1 i)

/-- The time derivative of every phase-space point of the batch: entry `(b, q)` is the per-row output at row `b`,
    coordinate `q`. -/
def outArray (Z : (⟨2, ![32768, 64]⟩ : Shape).Idx → EReal) (A1 : (⟨2, ![64, 1024]⟩ : Shape).Idx → EReal)
    (A2 : (⟨1, ![1024]⟩ : Shape).Idx → EReal) (A3 : (⟨2, ![1024, 1024]⟩ : Shape).Idx → EReal)
    (A4 : (⟨1, ![1024]⟩ : Shape).Idx → EReal) (A5 : (⟨2, ![1024, 1]⟩ : Shape).Idx → EReal)
    (A7 : (⟨2, ![64, 1024]⟩ : Shape).Idx → EReal) (A8 : (⟨1, ![1024]⟩ : Shape).Idx → EReal)
    (A9 : (⟨2, ![1024, 64]⟩ : Shape).Idx → EReal) (A10 : (⟨1, ![64]⟩ : Shape).Idx → EReal) :
    (⟨2, ![32768, 64]⟩ : Shape).Idx → EReal :=
  fun i => sqOut (row Z (i 0)) (mat A1) (vec A2) (mat A3) (vec A4) (mat A5) (mat A7) (vec A8) (mat A9) (vec A10) (i 1)

end Cert.HamGrad

end
-- ==== Proof.KernelValue.lean ====
/-
  The kernel's result array as one function of the argument arrays.

  Grid point `t` stages rows `512·t … 512·t + 511` of the batch and the whole of every prepared weight array, and writes
  back rows `512·t … 512·t + 511` of the result. What it writes at `(p, q)` is the per-row output of the batch's row
  `512·t + p` at coordinate `q` (KernelRows.lean over Windows.lean), that is, the specified array read through the
  point's block. The 64 blocks tile the 32768 rows, so the array after the run is the specified array everywhere.
-/
import proofs.«113158_j89464168775889_2_alg».proof.Proof.Gen.KernelIdeal.Value
import proofs.«113158_j89464168775889_2_alg».proof.Proof.KernelRows
import proofs.«113158_j89464168775889_2_alg».proof.Proof.Windows
import proofs.«113158_j89464168775889_2_alg».proof.Proof.Spec

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx Cert.HamGrad
open Cert.KernelIdeal.Windows Cert.KernelIdeal.Rows
open Idealize.ShloMosaic.Pipeline (Dat)

variable (m : (ℓ : Loc nD τ sig) → Buf (Elt Ideal) ℓ) (ρ : Dev nD → PrngReg)

/-- The specified result on core `c`: the per-row output at every row of the batch as launched. -/
def G (c : Dev nD) : S32768x64.Idx → EReal :=
  outArray (aZ m c) (aW1 m c) (ab1 m c) (aW2 m c) (ab2 m c) (aW3 m c) (aWf1 m c) (abf1 m c) (aWf2 m c) (abf2 m c)

theorem zero_offsets : (![0, 0] : Fin 2 → Nat) = fun _ => 0 := funext fun a => by fin_cases a <;> rfl

/-- The printed index maps over the 64 grid points: the batch window and the result window sit at block row `t`; every
    weight window is the whole array. -/
theorem block_indices : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The batch row that row `p` of point `t`'s block is. -/
def brow (t : Fin cfg0.N) (p : Fin 512) : Fin 32768 :=
  ⟨t.val * 512 + p.val, by have ht : t.val < 64 := Nat.lt_of_lt_of_eq t.isLt N_0; have := p.isLt; omega⟩

/-- Where entry `(p, q)` of point `t`'s result block lies in the result array. -/
theorem emb_out (t : Fin cfg0.N) (p : Fin 512) (q : Fin 64) :
    ((cfg0.win 9).blk t).view.emb (ix2 p q) = ix2 (brow t p) q := by
  obtain ⟨-, -, e0, e1, -⟩ := block_indices t
  funext a; apply Fin.ext
  match a with
  | ⟨0, _⟩ => show win0_9.index t (0 : Fin 2) * 512 + 1 * p.val = t.val * 512 + p.val; omega
  | ⟨1, _⟩ => show win0_9.index t (1 : Fin 2) * 64 + 1 * q.val = q.val; omega

/-- … and entry `(p, i)` of its batch block in the batch. -/
theorem emb_in (t : Fin cfg0.N) (p : Fin 512) (i : Fin 64) :
    ((cfg0.win 0).blk t).view.emb (ix2 p i) = ix2 (brow t p) i := by
  obtain ⟨e0, e1, -⟩ := block_indices t
  funext a; apply Fin.ext
  match a with
  | ⟨0, _⟩ => show win0_0.index t (0 : Fin 2) * 512 + 1 * p.val = t.val * 512 + p.val; omega
  | ⟨1, _⟩ => show win0_0.index t (1 : Fin 2) * 64 + 1 * i.val = i.val; omega

/-- The batch block at point `t`, read at `(p, i)`. -/
theorem blk0 (c : Dev nD) (t : Fin cfg0.N) (p : Fin 512) (i : Fin 64) :
    (iblk m c 0 t (ix2 p i) : EReal) = row (aZ m c) (brow t p) i := by
  show V m c main_arg0 (((cfg0.win 0).blk t).view.emb (ix2 p i)) = _
  rw [emb_in, V_main_arg0]
  rfl

/-! ## Every weight window's block is the whole prepared array -/

theorem emb1 (t : Fin cfg0.N) (y : S64x2048.Idx) : ((cfg0.win 1).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_1.index t (0 : Fin 2) * 64 + 1 * (y 0).val = (y 0).val; omega
  | ⟨1, _⟩ => show win0_1.index t (1 : Fin 2) * 2048 + 1 * (y 1).val = (y 1).val; omega

theorem emb2 (t : Fin cfg0.N) (y : S1x2048.Idx) : ((cfg0.win 2).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem emb3 (t : Fin cfg0.N) (y : S1024x1024.Idx) : ((cfg0.win 3).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem emb4 (t : Fin cfg0.N) (y : S1024x1024.Idx) : ((cfg0.win 4).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem emb5 (t : Fin cfg0.N) (y : S1x1024.Idx) : ((cfg0.win 5).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem emb7 (t : Fin cfg0.N) (y : S2048x64.Idx) : ((cfg0.win 7).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_7.index t (0 : Fin 2) * 2048 + 1 * (y 0).val = (y 0).val; omega
  | ⟨1, _⟩ => show win0_7.index t (1 : Fin 2) * 64 + 1 * (y 1).val = (y 1).val; omega

theorem emb8 (t : Fin cfg0.N) (y : S1x64.Idx) : ((cfg0.win 8).blk t).view.emb y = y := by
  obtain ⟨e00, e01, e90, e91, e10, e11, e20, e21, e30, e31, e40, e41, e50, e51, e60, e61, e70, e71, e80, e81⟩ := block_indices t
  funext a; apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega

/-! ## What the staged blocks hold, in the arguments' coordinates -/

section Blocks
variable (c : Dev nD) (t : Fin cfg0.N)

theorem blk1_lo (i : Fin 64) (j : Fin 1024) : (iblk m c 1 t (ix2 i (lo1024 j)) : EReal) = mat (aW1 m c) i j := by
  show V m c main_v1 (((cfg0.win 1).blk t).view.emb (ix2 i (lo1024 j))) = _
  rw [emb1, fusedW_lo]; rfl

theorem blk1_hi (i : Fin 64) (j : Fin 1024) : (iblk m c 1 t (ix2 i (hi1024 j)) : EReal) = mat (aWf1 m c) i j := by
  show V m c main_v1 (((cfg0.win 1).blk t).view.emb (ix2 i (hi1024 j))) = _
  rw [emb1, fusedW_hi]; rfl

theorem blk2_lo (j : Fin 1024) : (iblk m c 2 t (ix2 (0 : Fin 1) (lo1024 j)) : EReal) = vec (ab1 m c) j := by
  show V m c main_v3 (((cfg0.win 2).blk t).view.emb (ix2 (0 : Fin 1) (lo1024 j))) = _
  rw [emb2, fusedB_lo]; rfl

theorem blk2_hi (j : Fin 1024) : (iblk m c 2 t (ix2 (0 : Fin 1) (hi1024 j)) : EReal) = vec (abf1 m c) j := by
  show V m c main_v3 (((cfg0.win 2).blk t).view.emb (ix2 (0 : Fin 1) (hi1024 j))) = _
  rw [emb2, fusedB_hi]; rfl

theorem blk3 (j k : Fin 1024) : (iblk m c 3 t (ix2 j k) : EReal) = mat (aW2 m c) j k := by
  show V m c main_v4 (((cfg0.win 3).blk t).view.emb (ix2 j k)) = _
  rw [emb3, w2_apply]; rfl

theorem blk4 (k j : Fin 1024) : (iblk m c 4 t (ix2 k j) : EReal) = mat (aW2 m c) j k := by
  show V m c main_v6 (((cfg0.win 4).blk t).view.emb (ix2 k j)) = _
  rw [emb4, w2T_apply]; rfl

theorem blk5 (k : Fin 1024) : (iblk m c 5 t (ix2 (0 : Fin 1) k) : EReal) = vec (ab2 m c) k := by
  show V m c main_v7 (((cfg0.win 5).blk t).view.emb (ix2 (0 : Fin 1) k)) = _
  rw [emb5, b2_apply]; rfl

theorem blk6 (k : Fin 1024) : (iblk m c 6 t (ix2 (0 : Fin 1) k) : EReal) = mat (aW3 m c) k 0 := by
  show V m c main_v8 (((cfg0.win 6).blk t).view.emb (ix2 (0 : Fin 1) k)) = _
  rw [emb6, w3row_apply]; rfl

theorem blk7_ll (j : Fin 1024) (q : Fin 32) : (iblk m c 7 t (ix2 (lo1024 j) (lo32 q)) : EReal) = mat (aW1 m c) (hi32 q) j := by
  show V m c main_v15 (((cfg0.win 7).blk t).view.emb (ix2 (lo1024 j) (lo32 q))) = _
  rw [emb7, stack_top_lo]; rfl

theorem blk7_lh (j : Fin 1024) (q : Fin 32) : (iblk m c 7 t (ix2 (lo1024 j) (hi32 q)) : EReal) = -(mat (aW1 m c) (lo32 q) j) := by
  show V m c main_v15 (((cfg0.win 7).blk t).view.emb (ix2 (lo1024 j) (hi32 q))) = _
  rw [emb7, stack_top_hi]; rfl

theorem blk7_h (j : Fin 1024) (q : Fin 64) : (iblk m c 7 t (ix2 (hi1024 j) q) : EReal) = mat (aWf2 m c) j q := by
  show V m c main_v15 (((cfg0.win 7).blk t).view.emb (ix2 (hi1024 j) q)) = _
  rw [emb7, stack_bot]; rfl

theorem blk8 (q : Fin 64) : (iblk m c 8 t (ix2 (0 : Fin 1) q) : EReal) = vec (abf2 m c) q := by
  show V m c main_v16 (((cfg0.win 8).blk t).view.emb (ix2 (0 : Fin 1) q)) = _
  rw [emb8, bf2_apply]; rfl

end Blocks

/-! ## What a point writes back, the cover, and the array after the run -/

/-- Point `t` writes back block `t` of the specified array. -/
theorem writes_block (c : Dev nD) (t : Fin cfg0.N) :
    (dats m 0 c).flushed 9 t = ((cfg0.win 9).blk t).view.read (Elt Ideal) (G m c) := by
  rw [Value.flushed9]
  unfold out0_9
  rw [View.canon_unit_zero zero_offsets]
  simp only [View.ld_unit_zero (S := S512x64) zero_offsets, View.ld_unit_zero (S := S64x2048) zero_offsets,
    View.ld_unit_zero (S := S1x2048) zero_offsets, View.ld_unit_zero (S := S1024x1024) zero_offsets,
    View.ld_unit_zero (S := S1x1024) zero_offsets, View.ld_unit_zero (S := S2048x64) zero_offsets,
    View.ld_unit_zero (S := S1x64) zero_offsets]
  funext y
  obtain ⟨p, q, rfl⟩ : ∃ (p : Fin 512) (q : Fin 64), y = ix2 p q := ⟨y 0, y 1, eq_ix2 y⟩
  show k0_pay1 (k0_pay3 (iblk m c 0 t) (iblk m c 1 t) (iblk m c 2 t) (iblk m c 3 t) (iblk m c 5 t) (iblk m c 6 t) (iblk m c 4 t))
      (k0_pay4 (iblk m c 0 t) (iblk m c 1 t) (iblk m c 2 t)) (iblk m c 7 t) (iblk m c 8 t) (ix2 p q)
    = G m c (((cfg0.win 9).blk t).view.emb (ix2 p q))
  rw [emb_out]
  show _ = sqOut (row (aZ m c) (brow t p)) (mat (aW1 m c)) (vec (ab1 m c)) (mat (aW2 m c)) (vec (ab2 m c)) (mat (aW3 m c))
    (mat (aWf1 m c)) (vec (abf1 m c)) (mat (aWf2 m c)) (vec (abf2 m c)) q
  rcases fin64_cases q with ⟨q', rfl⟩ | ⟨q', rfl⟩
  · rw [sqOut_lo]
    exact body_lo (iblk m c 0 t) (iblk m c 1 t) (iblk m c 2 t) (iblk m c 3 t) (iblk m c 4 t) (iblk m c 5 t) (iblk m c 6 t)
      (iblk m c 7 t) (iblk m c 8 t) p (row (aZ m c) (brow t p)) (mat (aW1 m c)) (vec (ab1 m c)) (mat (aW2 m c)) (vec (ab2 m c))
      (mat (aW3 m c)) (mat (aWf1 m c)) (vec (abf1 m c)) (mat (aWf2 m c)) (vec (abf2 m c))
      (blk0 m c t p) (blk1_lo m c t) (blk1_hi m c t) (blk2_lo m c t) (blk2_hi m c t) (blk3 m c t) (blk4 m c t) (blk5 m c t) (blk6 m c t)
      (blk7_ll m c t) (blk7_h m c t) (blk8 m c t) q'
  · rw [sqOut_hi]
    exact body_hi (iblk m c 0 t) (iblk m c 1 t) (iblk m c 2 t) (iblk m c 3 t) (iblk m c 4 t) (iblk m c 5 t) (iblk m c 6 t)
      (iblk m c 7 t) (iblk m c 8 t) p (row (aZ m c) (brow t p)) (mat (aW1 m c)) (vec (ab1 m c)) (mat (aW2 m c)) (vec (ab2 m c))
      (mat (aW3 m c)) (mat (aWf1 m c)) (vec (abf1 m c)) (mat (aWf2 m c)) (vec (abf2 m c))
      (blk0 m c t p) (blk1_lo m c t) (blk1_hi m c t) (blk2_lo m c t) (blk2_hi m c t) (blk3 m c t) (blk4 m c t) (blk5 m c t) (blk6 m c t)
      (blk7_lh m c t) (blk7_h m c t) (blk8 m c t) q'

/-- An index of the result array is in point `t`'s block iff each coordinate is in the block's range on its axis. -/
theorem in_block_iff (t : Fin cfg0.N) (i : S32768x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v17).slice (win0_9.rect t)).set ↔ _
  rw [View.set_slice_whole, Rect.mem_set_unit]
  exact Iff.rfl

/-- Row `r` of the result lies in the block of point `r / 512`. -/
theorem rows_covered (i : S32768x64.Idx) : ∃ t : Fin cfg0.N, (cfg0.win 9).flush t = true ∧ i ∈ ((cfg0.win 9).blk t).view.set := by
  have hi0 : (i 0).val < 32768 := idx2_lt0 i
  have hi1 : (i 1).val < 64 := idx2_lt1 i
  refine ⟨⟨(i 0).val / 512, Nat.lt_of_lt_of_eq (by omega) N_0.symm⟩, flush0_9 _, ?_⟩
  rw [in_block_iff]
  obtain ⟨e00, e01, e90, e91, e10, e11, e20, e21, e30, e31, e40, e41, e50, e51, e60, e61, e70, e71, e80, e81⟩ := block_indices ⟨(i 0).val / 512, Nat.lt_of_lt_of_eq (by omega) N_0.symm⟩
  have e90' : win0_9.index ⟨(i 0).val / 512, Nat.lt_of_lt_of_eq (by omega) N_0.symm⟩ (0 : Fin 2) = (i 0).val / 512 := e90
  intro a
  match a with
  | ⟨0, _⟩ => show win0_9.index _ (0 : Fin 2) * 512 ≤ (i 0).val ∧ (i 0).val < win0_9.index _ (0 : Fin 2) * 512 + 512; omega
  | ⟨1, _⟩ => show win0_9.index _ (1 : Fin 2) * 64 ≤ (i 1).val ∧ (i 1).val < win0_9.index _ (1 : Fin 2) * 64 + 64; omega

/-- The result array after the run is the specified array. -/
theorem result_array (c : Dev nD) : (dats m 0 c).arrAt 9 cfg0.N = G m c :=
  (dats m 0 c).arrAt_eq_of_cover 9 (G m c) (fun t _ => writes_block m c t) rows_covered

/-- The kernel's run: every weakly fair execution terminates with the result array at the specified array and the
    arguments unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (result_array m c), (h c).2⟩) (Value.run_blocks m ρ)

end Cert.KernelIdeal.Whole

end
-- ==== Proof.RefRows.lean ====
/-
  The reference program read row by row.

  The reference applies the two tanh layers to the whole batch, lets automatic differentiation produce the gradient of
  the summed scalar output (the cotangent of ones contracted with the last weight column; each tanh crossed as
  `g·(1 − h) + g·(1 − h)·h`; each matrix product crossed by contracting with the same matrix on its other axis), takes
  the momentum half of the gradient followed by the NEGATED position half, and adds the forcing network's output. Read
  at an entry `(b, q)` every stage depends on row `b` of the batch only.
-/
import proofs.«113158_j89464168775889_2_alg».proof.Proof.Gen.ReferenceIdeal.Read
import proofs.«113158_j89464168775889_2_alg».proof.Proof.Spec
import Idealize.ShloMosaic.Lib.IdealHost

noncomputable section

namespace Cert.ReferenceIdeal.Rows

open Cert.ReferenceIdeal Cert.ReferenceIdeal.Gen Cert.ReferenceIdeal.Read Idealize.ShloMosaic Idealize.ShloMosaic.ValueIdx Cert.HamGrad

variable (A0 : S32768x64.Idx → EReal) (A1 : S64x1024.Idx → EReal) (A2 : S1024.Idx → EReal) (A3 : S1024x1024.Idx → EReal)
  (A4 : S1024.Idx → EReal) (A5 : S1024x1.Idx → EReal) (A7 : S64x1024.Idx → EReal) (A8 : S1024.Idx → EReal)
  (A9 : S1024x64.Idx → EReal) (A10 : S64.Idx → EReal)

/-- An index function on two axes is determined by its two coordinates. -/
macro "idx2" : tactic => `(tactic| (funext a; match a with | ⟨0, _⟩ => rfl | ⟨1, _⟩ => rfl))
/-- … and on one axis by its one. -/
macro "idx1" : tactic => `(tactic| (funext a; match a with | ⟨0, _⟩ => rfl))

/-! ## The hidden rows -/

theorem h1_apply (b : Fin 32768) (j : Fin 1024) :
    val_main_v4 (F := Ideal) A0 A1 A2 (ix2 b j) = hid1 (row A0 b) (mat A1) (vec A2) j := by
  rw [val_main_v4_apply, val_main_v3_apply, val_main_v0_apply, val_main_v2_apply, val_main_v1_apply]
  have e0 : ∀ k, lidx_main_v0 (ix2 b j) k = ix2 b k := fun k => by idx2
  have e1 : ∀ k, ridx_main_v0 (ix2 b j) k = ix2 k j := fun k => by idx2
  have e2 : idx_main_v1 (idx_main_v2 (ix2 b j)) = ix1 j := by idx1
  simp only [e0, e1, e2]
  rfl

theorem hf_apply (b : Fin 32768) (j : Fin 1024) :
    val_main_v37 (F := Ideal) A0 A7 A8 (ix2 b j) = hidF (row A0 b) (mat A7) (vec A8) j := by
  rw [val_main_v37_apply, val_main_v36_apply, val_main_v33_apply, val_main_v35_apply, val_main_v34_apply]
  have e0 : ∀ k, lidx_main_v33 (ix2 b j) k = ix2 b k := fun k => by idx2
  have e1 : ∀ k, ridx_main_v33 (ix2 b j) k = ix2 k j := fun k => by idx2
  have e2 : idx_main_v34 (idx_main_v35 (ix2 b j)) = ix1 j := by idx1
  simp only [e0, e1, e2]
  rfl

theorem h2_apply (b : Fin 32768) (k : Fin 1024) :
    val_main_v11 (F := Ideal) A0 A1 A2 A3 A4 (ix2 b k) = hid2 (row A0 b) (mat A1) (vec A2) (mat A3) (vec A4) k := by
  rw [val_main_v11_apply, val_main_v10_apply, val_main_v7_apply, val_main_v9_apply, val_main_v8_apply]
  have e0 : ∀ j, lidx_main_v7 (ix2 b k) j = ix2 b j := fun j => by idx2
  have e1 : ∀ j, ridx_main_v7 (ix2 b k) j = ix2 j k := fun j => by idx2
  have e2 : idx_main_v8 (idx_main_v9 (ix2 b k)) = ix1 k := by idx1
  simp only [e0, e1, e2, h1_apply]
  rfl

/-! ## The gradient, one layer at a time -/

theorem g2_apply (b : Fin 32768) (k : Fin 1024) :
    val_main_v23 (F := Ideal) A0 A1 A2 A3 A4 A5 (ix2 b k)
      = gAd2 (mat A5) (hid2 (row A0 b) (mat A1) (vec A2) (mat A3) (vec A4)) k := by
  rw [val_main_v23_apply, val_main_v22_apply, val_main_v21_apply, val_main_v20_apply, val_main_v13_apply, val_main_v12_apply,
    val_main_cst_0_apply, h2_apply]
  have e1 : ∀ o, ridx_main_v20 (ix2 b k) o = ix2 k o := fun o => by idx2
  simp only [val_main_v19_apply, val_main_cst_2_apply, e1, Ideal.ofBits_def, Ideal.ofBits_one_f32]
  rfl

theorem g1_apply (b : Fin 32768) (j : Fin 1024) :
    val_main_v27 (F := Ideal) A0 A1 A2 A3 A4 A5 (ix2 b j)
      = gAd1 (mat A5) (mat A3) (hid1 (row A0 b) (mat A1) (vec A2)) (hid2 (row A0 b) (mat A1) (vec A2) (mat A3) (vec A4)) j := by
  rw [val_main_v27_apply, val_main_v26_apply, val_main_v25_apply, val_main_v24_apply, val_main_v6_apply, val_main_v5_apply,
    val_main_cst_apply, h1_apply]
  have e0 : ∀ k, lidx_main_v24 (ix2 b j) k = ix2 b k := fun k => by idx2
  have e1 : ∀ k, ridx_main_v24 (ix2 b j) k = ix2 j k := fun k => by idx2
  simp only [e0, e1, g2_apply, Ideal.ofBits_def, Ideal.ofBits_one_f32]
  rfl

/-- The gradient with respect to the phase-space point: against the first-layer weights' row `i`. -/
theorem grad_apply (b : Fin 32768) (i : Fin 64) :
    val_main_v28 (F := Ideal) A0 A1 A2 A3 A4 A5 (ix2 b i)
      = ∑ j, gAd1 (mat A5) (mat A3) (hid1 (row A0 b) (mat A1) (vec A2)) (hid2 (row A0 b) (mat A1) (vec A2) (mat A3) (vec A4)) j * mat A1 i j := by
  rw [val_main_v28_apply]
  have e0 : ∀ j, lidx_main_v28 (ix2 b i) j = ix2 b j := fun j => by idx2
  have e1 : ∀ j, ridx_main_v28 (ix2 b i) j = ix2 i j := fun j => by idx2
  simp only [e0, e1, g1_apply]
  rfl

/-! ## The forcing term with its bias -/

theorem forcing_apply (b : Fin 32768) (q : Fin 64) :
    val_main_v41 (F := Ideal) A0 A7 A8 A9 A10 (ix2 b q)
      = force (row A0 b) (mat A7) (vec A8) (mat A9) q + vec A10 q := by
  rw [val_main_v41_apply, val_main_v38_apply, val_main_v40_apply, val_main_v39_apply]
  have e0 : ∀ j, lidx_main_v38 (ix2 b q) j = ix2 b j := fun j => by idx2
  have e1 : ∀ j, ridx_main_v38 (ix2 b q) j = ix2 j q := fun j => by idx2
  have e2 : idx_main_v39 (idx_main_v40 (ix2 b q)) = ix1 q := by idx1
  simp only [e0, e1, e2, hf_apply]
  rfl

/-! ## The result -/

/-- A position coordinate of the result: the gradient's momentum entry plus forcing and bias. -/
theorem out_lo (b : Fin 32768) (q : Fin 32) :
    val_main_v42 (F := Ideal) A0 A1 A2 A3 A4 A5 A7 A8 A9 A10 (ix2 b (lo32 q))
      = adLo (row A0 b) (mat A1) (vec A2) (mat A3) (vec A4) (mat A5) (mat A7) (vec A8) (mat A9) (vec A10) q := by
  rw [val_main_v42_apply, forcing_apply]
  unfold val_main_v32
  rw [concatenate_pair_apply_left (t := S32768x64) (s₁ := S32768x32) (s₂ := S32768x32) 1 _ _ _ (ix2 b (lo32 q)) rfl (ix2 b q)
    (fun a => by match a with | ⟨0, _⟩ => rfl | ⟨1, _⟩ => rfl)]
  rw [val_main_v29_apply]
  have e : idx_main_v29 (ix2 b q) = ix2 b (hi32 q) := by idx2
  rw [e, grad_apply]
  rfl

/-- A momentum coordinate of the result: minus the gradient's position entry plus forcing and bias. -/
theorem out_hi (b : Fin 32768) (q : Fin 32) :
    val_main_v42 (F := Ideal) A0 A1 A2 A3 A4 A5 A7 A8 A9 A10 (ix2 b (hi32 q))
      = adHi (row A0 b) (mat A1) (vec A2) (mat A3) (vec A4) (mat A5) (mat A7) (vec A8) (mat A9) (vec A10) q := by
  rw [val_main_v42_apply, forcing_apply]
  unfold val_main_v32
  rw [concatenate_pair_apply_right (t := S32768x64) (s₁ := S32768x32) (s₂ := S32768x32) 1 _ _ _ (ix2 b (hi32 q)) rfl rfl (ix2 b q)
    (fun a ha => by match a with | ⟨0, _⟩ => rfl | ⟨1, _⟩ => exact absurd rfl ha)
    (by show q.val + 32 = 32 + q.val; omega)]
  rw [val_main_v31_apply, val_main_v30_apply]
  have e : idx_main_v30 (ix2 b q) = ix2 b (lo32 q) := by idx2
  rw [e, grad_apply]
  rfl

/-- With real weights the reference's result is the specified array. -/
theorem result_eq (hW1 : ∀ i j, IsReal (mat A1 i j)) (hW2 : ∀ j k, IsReal (mat A3 j k)) (hW3 : ∀ k o, IsReal (mat A5 k o)) :
    val_main_v42 (F := Ideal) A0 A1 A2 A3 A4 A5 A7 A8 A9 A10 = outArray A0 A1 A2 A3 A4 A5 A7 A8 A9 A10 := by
  funext i
  obtain ⟨b, q, rfl⟩ : ∃ (b : Fin 32768) (q : Fin 64), i = ix2 b q := ⟨i 0, i 1, eq_ix2 i⟩
  show _ = sqOut (row A0 b) (mat A1) (vec A2) (mat A3) (vec A4) (mat A5) (mat A7) (vec A8) (mat A9) (vec A10) q
  rcases fin64_cases q with ⟨q', rfl⟩ | ⟨q', rfl⟩
  · rw [out_lo, sqOut_lo, sqLo_eq_adLo _ _ _ _ _ _ _ _ _ _ hW2 hW3]
  · rw [out_hi, sqOut_hi, sqHi_eq_adHi _ _ _ _ _ _ _ _ _ _ hW1 hW2 hW3]

end Cert.ReferenceIdeal.Rows

end
-- ==== Proof.LibFinite.lean ====
/-
  "Every entry is finite", read back: one array's conjunct of a finiteness precondition makes every entry real.

  A precondition `jnp.all(jnp.abs(x) < inf)` prints as a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«113158_j89464168775889_2_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.Finite.lean ====
/-
  What the precondition gives: the weights are real numbers.

  The precondition is the conjunction, over the eleven argument arrays, of "every entry's absolute value is below +∞".
  On extended reals `max a (−a) < ⊤` excludes exactly `⊤` and `⊥`, so it says the entry is a real number. Only the
  three weight arrays of the Hamiltonian network are needed (Algebra.lean): the values of tanh are real whatever the
  pre-activations are.
-/
import proofs.«113158_j89464168775889_2_alg».proof.Proof.Gen.Pre_finite_inputs
import proofs.«113158_j89464168775889_2_alg».proof.Proof.Spec
import proofs.«113158_j89464168775889_2_alg».proof.Proof.LibFinite

noncomputable section

namespace Cert.Pre_finite_inputs.Real

open Cert.Pre_finite_inputs Cert.Pre_finite_inputs.Gen Idealize.ShloMosaic Idealize.ShloMosaic.ValueIdx Cert.HamGrad Cert.LibFinite

/-- The precondition makes the three weight arrays of the Hamiltonian network real, entry by entry. -/
theorem weights_real (A0 : FVec Ideal S32768x64 .f32) (A1 : FVec Ideal S64x1024 .f32) (A2 : FVec Ideal S1024 .f32)
    (A3 : FVec Ideal S1024x1024 .f32) (A4 : FVec Ideal S1024 .f32) (A5 : FVec Ideal S1024x1 .f32) (A6 : FVec Ideal S1 .f32)
    (A7 : FVec Ideal S64x1024 .f32) (A8 : FVec Ideal S1024 .f32) (A9 : FVec Ideal S1024x64 .f32) (A10 : FVec Ideal S64 .f32)
    (h : fn (F := Ideal) A0 A1 A2 A3 A4 A5 A6 A7 A8 A9 A10 = fun _ => 1#1) :
    (∀ i, IsReal (A1 i)) ∧ (∀ i, IsReal (A3 i)) ∧ (∀ i, IsReal (A5 i)) := by
  have h0 := congrFun h ix0
  dsimp only [fn, fn_part1, fn_part2, fn_part3, andi] at h0
  obtain ⟨hX, -⟩ := IntOp.andi_eq_one.1 h0
  obtain ⟨hY, -⟩ := IntOp.andi_eq_one.1 hX
  obtain ⟨hZ, -⟩ := IntOp.andi_eq_one.1 hY
  obtain ⟨hW, -⟩ := IntOp.andi_eq_one.1 hZ
  obtain ⟨hU, -⟩ := IntOp.andi_eq_one.1 hW
  obtain ⟨hT, hA5⟩ := IntOp.andi_eq_one.1 hU
  obtain ⟨hS, -⟩ := IntOp.andi_eq_one.1 hT
  obtain ⟨hR, hA3⟩ := IntOp.andi_eq_one.1 hS
  obtain ⟨hQ, -⟩ := IntOp.andi_eq_one.1 hR
  obtain ⟨-, hA1⟩ := IntOp.andi_eq_one.1 hQ
  exact ⟨real_of_all A1 _ _ _ hA1, real_of_all A3 _ _ _ hA3, real_of_all A5 _ _ _ hA5⟩

end Cert.Pre_finite_inputs.Real

end
-- ==== Proof.lean ====
/-
  A batch of 32768 phase-space points `z ∈ ℝ⁶⁴` is sent to its time derivative under generalized Hamiltonian dynamics:
  the symplectic recombination of the gradient of a learned Hamiltonian — momentum half of `∇H` first, then the position
  half negated — plus a learned forcing term. `H` is a two-hidden-layer tanh network summed over the batch, so its
  gradient at a row depends on that row only; the forcing term is a one-hidden-layer tanh network.

  The kernel computes the gradient by hand: it fuses the two first-layer products, back-propagates with the derivative
  of tanh written `1 − h²`, and folds the recombination's split and sign into the first-layer weights before one fused
  output product. The reference lets automatic differentiation produce the gradient, with the derivative of tanh
  written `(1 − h) + (1 − h)·h`, and recombines afterwards. On extended reals both the two spellings of the derivative
  and the place of the minus sign (inside or outside a sum) agree only where the back-propagated quantities are real;
  they are, because values of tanh are always real and the precondition makes the weights real (Algebra.lean,
  Finite.lean). Everything else is re-laying: concatenations, slices, transposes, broadcasts, and matrix products read as
  finite sums (KernelRows.lean, Windows.lean, RefRows.lean); the kernel's 64 blocks of 512 rows tile the batch
  (KernelValue.lean).

  The frames of the two kernels are the generated ones; the reference's frame is its generated run with the result
  dropped; the idealization rewrote nothing, so there is nothing to preserve.
-/
import proofs.«113158_j89464168775889_2_alg».proof.Defs
import proofs.«113158_j89464168775889_2_alg».proof.Proof.Gen.Kernel
import proofs.«113158_j89464168775889_2_alg».proof.Proof.Gen.Kernel.Skeleton
import proofs.«113158_j89464168775889_2_alg».proof.Proof.Gen.Kernel.Launch
import proofs.«113158_j89464168775889_2_alg».proof.Proof.Gen.Kernel.Points
import proofs.«113158_j89464168775889_2_alg».proof.Proof.Gen.Kernel.Frame
import proofs.«113158_j89464168775889_2_alg».proof.Proof.Gen.KernelIdeal
import proofs.«113158_j89464168775889_2_alg».proof.Proof.Gen.KernelIdeal.Skeleton
import proofs.«113158_j89464168775889_2_alg».proof.Proof.Gen.KernelIdeal.Launch
import proofs.«113158_j89464168775889_2_alg».proof.Proof.Gen.KernelIdeal.Points
import proofs.«113158_j89464168775889_2_alg».proof.Proof.Gen.KernelIdeal.Frame
import proofs.«113158_j89464168775889_2_alg».proof.Proof.Gen.ReferenceIdeal
import proofs.«113158_j89464168775889_2_alg».proof.Proof.Gen.Pre_finite_inputs
import proofs.«113158_j89464168775889_2_alg».proof.Proof.Gen.KernelIdeal.Value
import proofs.«113158_j89464168775889_2_alg».proof.Proof.Gen.ReferenceIdeal.Run
import proofs.«113158_j89464168775889_2_alg».proof.Proof.Gen.ReferenceIdeal.Read
import proofs.«113158_j89464168775889_2_alg».proof.Proof.KernelValue
import proofs.«113158_j89464168775889_2_alg».proof.Proof.RefRows
import proofs.«113158_j89464168775889_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specified array of the kernel's arguments: the kernel's by its blocks, the
    reference's by its stages read row by row, the arguments agreeing, and the weights real by the precondition. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  obtain ⟨h0, h1, h2, h3, h4, h5, -, h7, h8, h9, h10⟩ := hagree c
  rw [h0, h1, h2, h3, h4, h5, h7, h8, h9, h10]
  obtain ⟨r1, r3, r5⟩ := Cert.Pre_finite_inputs.Real.weights_real _ _ _ _ _ _ _ _ _ _ _ (hpre c)
  exact Cert.ReferenceIdeal.Rows.result_eq _ _ _ _ _ _ _ _ _ _ (fun i j => r1 (ix2 i j)) (fun j k => r3 (ix2 j k)) (fun k o => r5 (ix2 k o))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
